-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S2048x256 : Shape := ⟨2, ![2048, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_

variable [Facts]

def fn {F : FTy → Type} [FloatOps F] (main_arg0 : FVec F S8192x256 .f32) (main_arg1 : FVec F S2048x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  main_v8
-- ==== Kernel.lean ====
abbrev S8192x256 : Shape := ⟨2, ![8192, 256]⟩
abbrev S2048x256 : Shape := ⟨2, ![2048, 256]⟩
abbrev S256x2048 : Shape := ⟨2, ![256, 2048]⟩
abbrev S_ : Shape := ⟨0, ![]⟩
abbrev S2048 : Shape := ⟨1, ![2048]⟩
abbrev S1x2048 : Shape := ⟨2, ![1, 2048]⟩
abbrev S8192x2048 : Shape := ⟨2, ![8192, 2048]⟩
abbrev S512x256 : Shape := ⟨2, ![512, 256]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S2048x256, .f32⟩
  | .hbm, ⟨2, _⟩ => ⟨S256x2048, .f32⟩
  | .hbm, ⟨3, _⟩ => ⟨S2048x256, .f32⟩
  | .hbm, ⟨4, _⟩ => ⟨S_, .f32⟩
  | .hbm, ⟨5, _⟩ => ⟨S2048, .f32⟩
  | .hbm, ⟨6, _⟩ => ⟨S1x2048, .f32⟩
  | .hbm, ⟨7, _⟩ => ⟨S8192x2048, .f32⟩
  | .local _ .vmem, ⟨0, _⟩ => ⟨S512x256, .f32⟩
  | .local _ .vmem, ⟨1, _⟩ => ⟨S512x256, .f32⟩
  | .local _ .vmem, ⟨2, _⟩ => ⟨S256x2048, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S2048x256_S256x2048_1_0 : S2048x256.Transposes [1, 0] S256x2048
  reducesTo_S2048x256_S2048_d1 : S2048x256.ReducesTo [1] S2048
  h_S_ : 0 < S_.numel
  bcast_S2048_S1x2048_1 : S2048.BroadcastsInDim S1x2048 (![1] : Fin 1 → Fin S1x2048.rank)
  inb_S512x256_S512x256_0_0 : ∀ a, (![0, 0] : Fin 2 → Nat) a + S512x256.size a ≤ S512x256.size a
  h_S512x256 : 0 < S512x256.numel
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  reduces_S512x256_S512 : S512x256.Reduces [1] S512
  shapeCasts_S512_S512x1 : S512.ShapeCasts S512x1
  broadcasts_S512x1_S512x2048 : S512x1.Broadcasts S512x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  dot_S512x256_S256x2048_S512x2048_1_0_0_1_n_n_wf : DotDims.WF S512x256 S256x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .f32 = 32 ∨ (Rect.block (s := S8192x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S256x2048.size a
  hwx0_1 : ∀ i : grid0.Coords, EltTy.bits .f32 = 32 ∨ (Rect.block (s := S256x2048) S256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x2048.size a
  hwx0_3 : ∀ i : grid0.Coords, EltTy.bits .f32 = 32 ∨ (Rect.block (s := S8192x2048) S512x2048.size (cc0_transform_3 i) (hinb0_3 i)).WholeWords (EltTy.packing .f32)

variable [Facts₀]

def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x256 : Shape := ⟨2, ![8192, 256]⟩
abbrev S2048x256 : Shape := ⟨2, ![2048, 256]⟩
abbrev S_ : Shape := ⟨0, ![]⟩
abbrev S8192 : Shape := ⟨1, ![8192]⟩
abbrev S8192x1 : Shape := ⟨2, ![8192, 1]⟩
abbrev S2048 : Shape := ⟨1, ![2048]⟩
abbrev S8192x2048 : Shape := ⟨2, ![8192, 2048]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S2048x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S2048x256, .f32⟩
  | .hbm, ⟨7, _⟩ => ⟨S_, .f32⟩
  | .hbm, ⟨8, _⟩ => ⟨S2048, .f32⟩
  | .hbm, ⟨9, _⟩ => ⟨S8192x2048, .f32⟩
  | .hbm, ⟨10, _⟩ => ⟨S1x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  reducesTo_S2048x256_S2048_d1 : S2048x256.ReducesTo [1] S2048
  bcast_S2048_S1x2048_1 : S2048.BroadcastsInDim S1x2048 (![1] : Fin 1 → Fin S1x2048.rank)
  bcast_S8192x1_S8192x2048_0_1 : S8192x1.BroadcastsInDim S8192x2048 (![0, 1] : Fin 2 → Fin S8192x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  dot_S8192x256_S2048x256_S8192x2048_1_1_0_0_n_n_wf : DotDims.WF S8192x256 S2048x256 S8192x2048 [1] [1] [0] [0] [] []

variable [Facts₀]

def dot_S8192x256_S2048x256_S8192x2048_1_1_0_0_n_n : DotDims S8192x256 S2048x256 S8192x2048 where
  lhsContracting := [1]
  rhsContracting := [1]
  lhsNonContracting := [0]
  rhsNonContracting := [0]
  lhsBatch := []
  rhsBatch := []
  wf := dot_S8192x256_S2048x256_S8192x2048_1_1_0_0_n_n_wf

class Facts : Prop extends Facts₀ where

variable [Facts]
-- ==== Proof.RbfSpec.lean ====
/-
  The radial-basis-function layer as one function of the two argument arrays, on the extended reals.

  For points x_b (the rows of X, 8192 of them) and landmarks l_j (the rows of L, 2048 of them), both in
  dimension 256, entry (b, j) of the result is

      exp( -(1/256) · max( |x_b|² + |l_j|² − 2 · ⟨x_b, l_j⟩ , 0 ) )

  where |x_b|² and |l_j|² are the sums of the squared coordinates and ⟨x_b, l_j⟩ the sum of the coordinatewise
  products, each a sum over the 256 coordinates. Both programs compute exactly this expression, differing only in
  how the sums are laid out (a lane reduction or a host reduction, a matrix product against the transposed
  landmarks or a contraction of the second axes) and in how the scale −1/256 is spelt (its own bit pattern, or the
  pattern of 1/256 negated). This module states the function and the one fact about the two spellings of the scale.
-/
import Idealize.ShloMosaic.PureOps.Ideal
import Idealize.ShloMosaic.Lib.ValueIdx

noncomputable section

namespace Cert.Rbf

open Idealize.ShloMosaic Idealize.ShloMosaic.ValueIdx

/-- The shapes of the points, the landmarks and the result. -/
abbrev SX : Shape := ⟨2, ![8192, 256]⟩
abbrev SL : Shape := ⟨2, ![2048, 256]⟩
abbrev SO : Shape := ⟨2, ![8192, 2048]⟩

/-- The pattern `0x3B800000` denotes the real 1/256 (2⁻⁸, exactly representable). -/
theorem ofBits_gamma : Ideal.ofBits .f32 0x3B800000#32 = ((1 / 256 : ℝ) : EReal) := by
  simp [Ideal.ofBits, Ideal.ieee, -EReal.coe_mul]; norm_num

/-- The pattern `0xBB800000`, the same with the sign bit set, denotes −1/256. -/
theorem ofBits_negGamma : Ideal.ofBits .f32 0xBB800000#32 = ((-(1 / 256) : ℝ) : EReal) := by
  simp [Ideal.ofBits, Ideal.ieee, -EReal.coe_mul]; norm_num

/-- So the scale spelt as a literal is the scale spelt as the negation of 1/256. -/
theorem negGamma_eq : Ideal.ofBits .f32 0xBB800000#32 = -(Ideal.ofBits .f32 0x3B800000#32) := by
  rw [ofBits_gamma, ofBits_negGamma, EReal.coe_neg]

/-- |x_b|²: the squared norm of row `b` of the points. -/
def xSq (X : SX.Idx → EReal) (b : Fin 8192) : EReal := ∑ k : Fin 256, X (ix2 b k) * X (ix2 b k)

/-- |l_j|²: the squared norm of row `j` of the landmarks. -/
def lSq (L : SL.Idx → EReal) (j : Fin 2048) : EReal := ∑ k : Fin 256, L (ix2 j k) * L (ix2 j k)

/-- ⟨x_b, l_j⟩: the inner product of a point and a landmark. -/
def inner (X : SX.Idx → EReal) (L : SL.Idx → EReal) (b : Fin 8192) (j : Fin 2048) : EReal :=
  ∑ k : Fin 256, X (ix2 b k) * L (ix2 j k)

/-- Entry (b, j) of the layer: the Gaussian of the clamped squared distance, the distance expanded as
    |x|² + |l|² − 2⟨x, l⟩. The literals are kept as their bit patterns: 2 as `0x40000000`, −1/256 as `0xBB800000`. -/
def rbfAt (X : SX.Idx → EReal) (L : SL.Idx → EReal) (b : Fin 8192) (j : Fin 2048) : EReal :=
  Ideal.exp (Ideal.ofBits .f32 0xBB800000#32
    * max (xSq X b + lSq L j - Ideal.ofBits .f32 0x40000000#32 * inner X L b j) 0)

/-- The whole result array. -/
def rbf (X : SX.Idx → EReal) (L : SL.Idx → EReal) : SO.Idx → EReal := fun i => rbfAt X L (i 0) (i 1)

theorem rbf_ix2 (X : SX.Idx → EReal) (L : SL.Idx → EReal) (b : Fin 8192) (j : Fin 2048) :
    rbf X L (ix2 b j) = rbfAt X L b j := rfl

end Cert.Rbf

end
-- ==== Proof.RefIsRbf.lean ====
/-
  The reference program computes the radial-basis-function layer.

  Its run ends with the result array at the composition of its twenty-four host operations. Read one entry (b, j)
  at a time: the two row-norm reductions are the initial value 0 plus the sum over the 256 coordinates of the squares,
  broadcast along the other axis; the contraction of the two second axes is the sum over the 256 coordinates of the
  products x_b[k] · l_j[k]; the scale is the pattern of 1/256 negated. With 0 + s = s and the two spellings of
  −1/256 identified, the entry is `Cert.Rbf.rbfAt` of the two arguments.
-/
import proofs.«140995_j58128087384571_2_alg».proof.Proof.Gen.ReferenceIdeal.Read
import proofs.«140995_j58128087384571_2_alg».proof.Proof.RbfSpec

noncomputable section

namespace Cert.RefRbf

open Cert.ReferenceIdeal Cert.ReferenceIdeal.Read Idealize.ShloMosaic Idealize.ShloMosaic.ValueIdx

/-- Row `b` of the points, coordinate `k`: where the first norm reduction reads for entry (b, j). -/
theorem idx_xsq (b : Fin 8192) (j : Fin 2048) (k : Fin 256) :
    idx_main_v1 (idx_main_v2 (idx_main_v7 (ix2 b j))) k = ix2 b k :=
  funext fun a => Fin.ext (by match a with | ⟨0, _⟩ => rfl | ⟨1, _⟩ => rfl)

/-- Row `j` of the landmarks, coordinate `k`: where the second norm reduction reads for entry (b, j). -/
theorem idx_lsq (b : Fin 8192) (j : Fin 2048) (k : Fin 256) :
    idx_main_v4 (idx_main_v6 (idx_main_v8 (ix2 b j))) k = ix2 j k :=
  funext fun a => Fin.ext (by match a with | ⟨0, _⟩ => rfl | ⟨1, _⟩ => rfl)

/-- The contraction's left factor for entry (b, j) at `k` is x_b[k], -/
theorem idx_dotl (b : Fin 8192) (j : Fin 2048) (k : Fin 256) : lidx_main_v5 (ix2 b j) k = ix2 b k :=
  funext fun a => Fin.ext (by match a with | ⟨0, _⟩ => rfl | ⟨1, _⟩ => rfl)

/-- and its right factor l_j[k]. -/
theorem idx_dotr (b : Fin 8192) (j : Fin 2048) (k : Fin 256) : ridx_main_v5 (ix2 b j) k = ix2 j k :=
  funext fun a => Fin.ext (by match a with | ⟨0, _⟩ => rfl | ⟨1, _⟩ => rfl)

/-- The last stage of the reference, as a function of the two arguments, is the layer. -/
theorem stage_eq (x0 : (⟨S8192x256, .f32⟩ : BufTy).Contents (Elt Ideal)) (x1 : (⟨S2048x256, .f32⟩ : BufTy).Contents (Elt Ideal)) :
    val_main_v18 (F := Ideal) x0 x1 = Cert.Rbf.rbf x0 x1 := by
  funext i
  obtain ⟨b, j, rfl⟩ : ∃ (b : Fin 8192) (j : Fin 2048), i = ix2 b j := ⟨i 0, i 1, eq_ix2 i⟩
  rw [Cert.Rbf.rbf_ix2, val_main_v18_apply, val_main_v17_apply, val_main_v16_apply, val_main_v15_apply, val_main_cst_3_apply,
    val_main_v14_apply, val_main_v13_apply, val_main_cst_2_apply, val_main_v12_apply, val_main_v11_apply, val_main_v10_apply,
    val_main_cst_1_apply, val_main_v5_apply, val_main_v9_apply, val_main_v7_apply, val_main_v2_apply, val_main_v1_apply,
    val_main_v8_apply, val_main_v6_apply, val_main_v4_apply]
  simp only [idx_xsq, idx_lsq, idx_dotl, idx_dotr, val_main_v0_apply, val_main_v3_apply, val_main_cst_apply, val_main_cst_0_apply,
    Ideal.ofBits_def, Ideal.mulf_def, Ideal.addf_def, Ideal.subf_def, Ideal.maximumf_def, Ideal.hostUnary_exp_def,
    Ideal.hostNegf_def, Ideal.negf_def, Ideal.ofBits_zero_f32, zero_add, ← Cert.Rbf.negGamma_eq]
  rfl

end Cert.RefRbf

end
-- ==== Proof.BodyAtIndex.lean ====
/-
  One entry of what the kernel body stores, as a formula in the three blocks it loads.

  The body loads a block of 512 points `x` (512 × 256), the transposed landmarks `lt` (256 × 2048) and the row of
  landmark norms `l2` (1 × 2048), and stores, at row `p` and column `q` of its 512 × 2048 output block,

      exp( −(1/256) · max( (Σ_k x[p,k]²) + l2[0,q] − 2 · Σ_k x[p,k] · lt[k,q] , 0 ) ).

  The three parts that are not entrywise are read here one at a time: the lane sum of the squares kept as a column
  and broadcast along the columns; the row of norms broadcast along the rows; the matrix product into a zero
  accumulator, which on the extended reals is the plain sum of products over the contracted axis.
-/
import proofs.«140995_j58128087384571_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelRbf

open Cert.KernelIdeal Cert.KernelIdeal.Gen Idealize.ShloMosaic Idealize.ShloMosaic.ValueIdx

/-- The sum over a row's 256 lanes, kept as a 512 × 1 column and broadcast to 512 × 2048: at (p, q) it is the sum over
    `k` of the operand at (p, k), whatever the column `q`. -/
theorem rowsum_at (v : FVec Ideal S512x256 .f32) (p : Fin 512) (q : Fin 2048) :
    broadcastTo S512x2048 (shapeCast S512x1 (multiReduction .add [1] S512 v 0x00000000#32 reduces_S512x256_S512 (.inl rfl) rfl)
        shapeCasts_S512_S512x1) broadcasts_S512x1_S512x2048 (ix2 p q)
      = ∑ k : Fin 256, v (ix2 p k) := by
  refine (broadcastTo_apply _ broadcasts_S512x1_S512x2048 (ix2 p q) (ix2 p (0 : Fin 1)) (fun a => ?_)).trans ?_
  · match a with
    | ⟨0, _⟩ => show p.val = if (512 : Nat) = 1 then 0 else p.val; rw [if_neg (by decide)]
    | ⟨1, _⟩ => show 0 = if (1 : Nat) = 1 then 0 else q.val; rw [if_pos rfl]
  refine (shapeCast_apply _ shapeCasts_S512_S512x1 (ix2 p (0 : Fin 1)) (ix1 p) ?_).trans ?_
  · rw [Shape.rowMajor_val_one, Shape.rowMajor_val_two]
    show p.val = p.val * 1 + 0
    omega
  refine (Ideal.multiReduction_add_single v 0x00000000#32 reduces_S512x256_S512 (.inl rfl) rfl (ix1 p)).trans ?_
  exact Finset.sum_congr rfl fun k _ => congrArg v (funext fun a => Fin.ext (by match a with | ⟨0, _⟩ => rfl | ⟨1, _⟩ => rfl))

/-- The one row of landmark norms broadcast to 512 × 2048: at (p, q) it is the row's entry at column `q`. -/
theorem normrow_at (x3 : FVec Ideal S1x2048 .f32) (p : Fin 512) (q : Fin 2048) :
    broadcastTo S512x2048 (shapeCast S1x2048 x3 shapeCasts_S1x2048_S1x2048) broadcasts_S1x2048_S512x2048 (ix2 p q)
      = x3 (ix2 (0 : Fin 1) q) := by
  rw [shapeCast_self]
  exact broadcastTo_1b_ab_apply x3 broadcasts_S1x2048_S512x2048 p q

/-- The left operand's row coordinate is the entry's row, whatever the contraction position; -/
theorem lhs_row (i : S512x2048.Idx) (r : dot_S512x256_S256x2048_S512x2048_1_0_0_1_n_n.contr.Idx) :
    (dot_S512x256_S256x2048_S512x2048_1_0_0_1_n_n.lhsIdx i r 0).val = (i 0).val := by
  unfold DotDims.lhsIdx
  rw [dif_neg (show ¬(0 : Fin S512x256.rank) ∈ dot_S512x256_S256x2048_S512x2048_1_0_0_1_n_n.lhsBatch by decide),
    dif_pos (show (0 : Fin S512x256.rank) ∈ dot_S512x256_S256x2048_S512x2048_1_0_0_1_n_n.lhsNonContracting by decide)]
  rfl

/-- its column coordinate is the contraction position's one coordinate. -/
theorem lhs_col (i : S512x2048.Idx) (r : dot_S512x256_S256x2048_S512x2048_1_0_0_1_n_n.contr.Idx) :
    (dot_S512x256_S256x2048_S512x2048_1_0_0_1_n_n.lhsIdx i r 1).val = (r ⟨0, by decide⟩).val :=
  dot_S512x256_S256x2048_S512x2048_1_0_0_1_n_n.lhsIdx_val_of_single rfl i r

/-- The right operand's row coordinate is the contraction position's one coordinate; -/
theorem rhs_row (i : S512x2048.Idx) (r : dot_S512x256_S256x2048_S512x2048_1_0_0_1_n_n.contr.Idx) :
    (dot_S512x256_S256x2048_S512x2048_1_0_0_1_n_n.rhsIdx i r 0).val = (r ⟨0, by decide⟩).val :=
  dot_S512x256_S256x2048_S512x2048_1_0_0_1_n_n.rhsIdx_val_of_single rfl i r

/-- its column coordinate is the entry's column. -/
theorem rhs_col (i : S512x2048.Idx) (r : dot_S512x256_S256x2048_S512x2048_1_0_0_1_n_n.contr.Idx) :
    (dot_S512x256_S256x2048_S512x2048_1_0_0_1_n_n.rhsIdx i r 1).val = (i 1).val := by
  unfold DotDims.rhsIdx
  rw [dif_neg (show ¬(1 : Fin S256x2048.rank) ∈ dot_S512x256_S256x2048_S512x2048_1_0_0_1_n_n.rhsBatch by decide),
    dif_pos (show (1 : Fin S256x2048.rank) ∈ dot_S512x256_S256x2048_S512x2048_1_0_0_1_n_n.rhsNonContracting by decide)]
  rfl

/-- The 512 × 256 by 256 × 2048 product into a zero accumulator: at (p, q) the sum over `k` of x[p,k] · lt[k,q]. -/
theorem product_at (x0 : FVec Ideal S512x256 .f32) (x1 : FVec Ideal S256x2048 .f32) (p : Fin 512) (q : Fin 2048) :
    matmul dot_S512x256_S256x2048_S512x2048_1_0_0_1_n_n (some .fp32) x0
        (shapeCast S256x2048 x1 shapeCasts_S256x2048_S256x2048) (constant S512x2048 .f32 0x00000000#32) (ix2 p q)
      = ∑ k : Fin 256, x0 (ix2 p k) * x1 (ix2 k q) := by
  rw [shapeCast_self]
  refine (Ideal.matmul_constant_zero_apply dot_S512x256_S256x2048_S512x2048_1_0_0_1_n_n (some .fp32) x0 x1 (ix2 p q)).trans ?_
  rw [← Equiv.sum_comp (contrEquiv1 dot_S512x256_S256x2048_S512x2048_1_0_0_1_n_n 256 rfl rfl).symm]
  refine Finset.sum_congr rfl fun k _ => ?_
  have hk := contrEquiv1_symm_val dot_S512x256_S256x2048_S512x2048_1_0_0_1_n_n 256 rfl rfl k
  have el : dot_S512x256_S256x2048_S512x2048_1_0_0_1_n_n.lhsIdx (ix2 p q)
      ((contrEquiv1 dot_S512x256_S256x2048_S512x2048_1_0_0_1_n_n 256 rfl rfl).symm k) = ix2 p k := funext fun a => Fin.ext (by
    match a with
    | ⟨0, _⟩ => exact lhs_row _ _
    | ⟨1, _⟩ => exact (lhs_col _ _).trans hk)
  have er : dot_S512x256_S256x2048_S512x2048_1_0_0_1_n_n.rhsIdx (ix2 p q)
      ((contrEquiv1 dot_S512x256_S256x2048_S512x2048_1_0_0_1_n_n 256 rfl rfl).symm k) = ix2 k q := funext fun a => Fin.ext (by
    match a with
    | ⟨0, _⟩ => exact (rhs_row _ _).trans hk
    | ⟨1, _⟩ => exact rhs_col _ _)
  rw [el, er]

/-- One entry of the stored block. -/
theorem body_at (x0 : FVec Ideal S512x256 .f32) (x1 : FVec Ideal S256x2048 .f32) (x3 : FVec Ideal S1x2048 .f32)
    (p : Fin 512) (q : Fin 2048) :
    k0_pay1 (F := Ideal) x0 x1 x3 (ix2 p q)
      = Ideal.exp (Ideal.ofBits .f32 0xBB800000#32
          * max ((∑ k : Fin 256, x0 (ix2 p k) * x0 (ix2 p k)) + x3 (ix2 (0 : Fin 1) q)
              - Ideal.ofBits .f32 0x40000000#32 * ∑ k : Fin 256, x0 (ix2 p k) * x1 (ix2 k q)) 0) := by
  unfold k0_pay1
  show Ideal.exp (Ideal.ofBits .f32 0xBB800000#32
      * max (broadcastTo S512x2048 (shapeCast S512x1 (multiReduction .add [1] S512 (mulf x0 x0) 0x00000000#32 reduces_S512x256_S512 (.inl rfl) rfl)
              shapeCasts_S512_S512x1) broadcasts_S512x1_S512x2048 (ix2 p q)
            + broadcastTo S512x2048 (shapeCast S1x2048 x3 shapeCasts_S1x2048_S1x2048) broadcasts_S1x2048_S512x2048 (ix2 p q)
          - Ideal.ofBits .f32 0x40000000#32
            * matmul dot_S512x256_S256x2048_S512x2048_1_0_0_1_n_n (some .fp32) x0
                (shapeCast S256x2048 x1 shapeCasts_S256x2048_S256x2048) (constant S512x2048 .f32 0x00000000#32) (ix2 p q))
          (Ideal.ofBits .f32 0x00000000#32)) = _
  rw [rowsum_at, normrow_at, product_at, Ideal.ofBits_zero_f32]
  rfl

end Cert.KernelRbf

end
-- ==== Proof.HostPrefix.lean ====
/-
  What the region finds in the two arrays the host prepares before the call.

  Before the call the program transposes the landmarks (2048 × 256 to 256 × 2048) and sums the squares of each
  landmark's coordinates into one row of 2048 norms. Entry (k, j) of the transposed array is entry (j, k) of the
  landmarks; entry (0, j) of the row is the host reduction's initial value 0 plus the sum over the 256 coordinates
  of the squares, that is the sum itself.
-/
import proofs.«140995_j58128087384571_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelRbf

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The points as launched on core `c`: the first argument array, 8192 × 256. -/
def points (c : Dev nD) : S8192x256.Idx → EReal := m ((c : Thread nD τ).loc main_arg0)

/-- The landmarks as launched on core `c`: the second argument array, 2048 × 256. -/
def landmarks (c : Dev nD) : S2048x256.Idx → EReal := m ((c : Thread nD τ).loc main_arg1)

/-- The second window's array, as the region finds it, is the landmarks transposed. -/
theorem found_transposed (c : Dev nD) :
    (V m c main_v0 : S256x2048.Idx → EReal)
      = transpose S256x2048 [1, 0] (landmarks m c) transposes_S2048x256_S256x2048_1_0 := by
  unfold landmarks
  dsimp only [Gen.V, Gen.hostOps0]
  after_results

/-- The third window's array, as the region finds it, is the row of the landmarks' summed squares. -/
theorem found_norms (c : Dev nD) :
    (V m c main_v3 : S1x2048.Idx → EReal)
      = broadcastInDim S1x2048 ![1] bcast_S2048_S1x2048_1
          (Host.reduceAdd (mulf (landmarks m c) (landmarks m c))
            (constant (F := Ideal) S_ .f32 0x00000000#32) reducesTo_S2048x256_S2048_d1 h_S_) := by
  unfold landmarks
  dsimp only [Gen.V, Gen.hostOps0]
  after_results

/-- Entry (k, j) of the transposed landmarks is entry (j, k) of the landmarks. -/
theorem found_transposed_at (c : Dev nD) (k : Fin 256) (j : Fin 2048) :
    (V m c main_v0 : S256x2048.Idx → EReal) (ix2 k j) = landmarks m c (ix2 j k) := by
  rw [found_transposed]
  exact transpose_ix2_apply _ transposes_S2048x256_S256x2048_1_0 k j

/-- Entry (0, j) of the norm row is the sum of the squares of landmark `j`'s coordinates. -/
theorem found_norms_at (c : Dev nD) (j : Fin 2048) :
    (V m c main_v3 : S1x2048.Idx → EReal) (ix2 (0 : Fin 1) j)
      = ∑ k : Fin 256, landmarks m c (ix2 j k) * landmarks m c (ix2 j k) := by
  rw [found_norms]
  generalize landmarks m c = L
  refine (broadcastInDim_apply _ bcast_S2048_S1x2048_1 _ (ix2 (0 : Fin 1) j) (ix1 j) (fun a => match a with
    | ⟨0, _⟩ => by show j.val = if (2048 : Nat) = 1 then 0 else j.val; rw [if_neg (by decide)])).trans ?_
  simp only [Host.reduceAdd, Ideal.hostReduceAdd_def]
  rw [Ideal.hostReduceAdd_single reducesTo_S2048x256_S2048_d1 (by decide)]
  show Ideal.ofBits .f32 0x00000000#32 + _ = _
  rw [Ideal.ofBits_zero_f32, zero_add]
  exact Finset.sum_congr rfl fun k _ => congrArg (fun z => L z * L z)
    (funext fun a => Fin.ext (by match a with | ⟨0, _⟩ => rfl | ⟨1, _⟩ => rfl))

end Cert.KernelRbf

end
-- ==== Proof.KernelIsRbf.lean ====
/-
  The kernel computes the radial-basis-function layer.

  The grid has 16 points; point `t` loads rows 512·t … 512·t + 511 of the points, the whole transposed-landmark array
  and the whole row of landmark norms, and writes back rows 512·t … 512·t + 511 of the result. Entry (p, q) of what
  point `t` writes is the body's formula in its three blocks; with the blocks read where they sit in the arrays
  (the point block at row 512·t + p, the transposed landmarks at (k, q) being landmark q's coordinate k, the norm row
  at q being landmark q's summed squares) that formula is entry (512·t + p, q) of the layer. Every row of the result
  lies in exactly the block of the point t = row / 512, so the blocks cover the array and the array ends holding
  the layer.
-/
import proofs.«140995_j58128087384571_2_alg».proof.Proof.Gen.KernelIdeal.Value
import proofs.«140995_j58128087384571_2_alg».proof.Proof.RbfSpec
import proofs.«140995_j58128087384571_2_alg».proof.Proof.BodyAtIndex
import proofs.«140995_j58128087384571_2_alg».proof.Proof.HostPrefix

noncomputable section

namespace Cert.KernelRbf

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Where each window's block sits at point `t`: the points and the result move down one block of rows per point,
    the transposed landmarks and the norm row stay at the origin. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the point block at `t` is row 512·t + p of the points. -/
theorem points_block_at (c : Dev nD) (t : Fin cfg0.N) (p : Fin 512) (k : Fin 256) (b : Fin 8192)
    (hb : b.val = 512 * t.val + p.val) :
    (iblk m c 0 t : S512x256.Idx → EReal) (ix2 p k) = points m c (ix2 b k) := by
  obtain ⟨e0, e1, -⟩ := block_indices t
  unfold iblk points
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 512 + 1 * p.val = b.val; rw [e0, hb]; omega
  | ⟨1, _⟩ => show win0_0.index t (1 : Fin 2) * 256 + 1 * k.val = k.val; rw [e1]; omega

/-- The second block is the whole transposed array: its entry (k, j) is coordinate `k` of landmark `j`. -/
theorem transposed_block_at (c : Dev nD) (t : Fin cfg0.N) (k : Fin 256) (j : Fin 2048) :
    (iblk m c 1 t : S256x2048.Idx → EReal) (ix2 k j) = landmarks m c (ix2 j k) := by
  obtain ⟨-, -, e0, e1, -⟩ := block_indices t
  refine Eq.trans ?_ (found_transposed_at m c k j)
  unfold iblk
  rw [View.read_apply]
  show V m c main_v0 _ = V m c main_v0 _
  refine congrArg (V m c main_v0) (funext fun a => Fin.ext ?_)
  match a with
  | ⟨0, _⟩ => show win0_1.index t (0 : Fin 2) * 256 + 1 * k.val = k.val; rw [e0]; omega
  | ⟨1, _⟩ => show win0_1.index t (1 : Fin 2) * 2048 + 1 * j.val = j.val; rw [e1]; omega

/-- The third block is the whole norm row: its entry (0, j) is the summed squares of landmark `j`. -/
theorem norms_block_at (c : Dev nD) (t : Fin cfg0.N) (j : Fin 2048) :
    (iblk m c 2 t : S1x2048.Idx → EReal) (ix2 (0 : Fin 1) j)
      = ∑ k : Fin 256, landmarks m c (ix2 j k) * landmarks m c (ix2 j k) := by
  obtain ⟨-, -, -, -, e0, e1, -⟩ := block_indices t
  refine Eq.trans ?_ (found_norms_at m c j)
  unfold iblk
  rw [View.read_apply]
  show V m c main_v3 _ = V m c main_v3 _
  refine congrArg (V m c main_v3) (funext fun a => Fin.ext ?_)
  match a with
  | ⟨0, _⟩ => show win0_2.index t (0 : Fin 2) * 1 + 1 * 0 = 0; rw [e0]
  | ⟨1, _⟩ => show win0_2.index t (1 : Fin 2) * 2048 + 1 * j.val = j.val; rw [e1]; omega

/-- What point `t` writes back is its block of the layer of the arguments. -/
theorem flushed_eq (c : Dev nD) (t : Fin cfg0.N) :
    (dats m 0 c).flushed 3 t
      = ((cfg0.win 3).blk t).view.read (Elt Ideal) (Cert.Rbf.rbf (points m c) (landmarks m c)) := by
  rw [Value.flushed3]
  unfold out0_3
  rw [View.canon_unit_zero zero_offsets]
  simp only [View.ld_unit_zero (S := S512x256) zero_offsets, View.ld_unit_zero (S := S256x2048) zero_offsets,
    View.ld_unit_zero (S := S1x2048) zero_offsets]
  refine funext fun y => ?_
  obtain ⟨p, q, rfl⟩ : ∃ (p : Fin 512) (q : Fin 2048), y = ix2 p q := ⟨y 0, y 1, eq_ix2 y⟩
  have ht : t.val < 16 := Nat.lt_of_lt_of_eq t.isLt N_0
  obtain ⟨b, hb⟩ : ∃ b : Fin 8192, b.val = 512 * t.val + p.val := ⟨⟨512 * t.val + p.val, by have := p.isLt; omega⟩, rfl⟩
  obtain ⟨-, -, -, -, -, -, e0, e1⟩ := block_indices t
  show k0_pay1 (F := Ideal) (iblk m c 0 t) (iblk m c 1 t) (iblk m c 2 t) (ix2 p q)
    = Cert.Rbf.rbf (points m c) (landmarks m c) (((cfg0.win 3).blk t).view.emb (ix2 p q))
  have hpos : ((cfg0.win 3).blk t).view.emb (ix2 p q) = ix2 b q := funext fun a => Fin.ext (by
    match a with
    | ⟨0, _⟩ => show win0_3.index t (0 : Fin 2) * 512 + 1 * p.val = b.val; rw [e0, hb]; omega
    | ⟨1, _⟩ => show win0_3.index t (1 : Fin 2) * 2048 + 1 * q.val = q.val; rw [e1]; omega)
  rw [hpos, Cert.Rbf.rbf_ix2]
  refine (body_at (iblk m c 0 t) (iblk m c 1 t) (iblk m c 2 t) p q).trans ?_
  unfold Cert.Rbf.rbfAt Cert.Rbf.xSq Cert.Rbf.lSq Cert.Rbf.inner
  simp only [fun k => points_block_at m c t p k b hb, transposed_block_at m c t, norms_block_at m c t]

/-- An index of the result is in point `t`'s block iff each coordinate is in the block's range on its axis. -/
theorem mem_block (t : Fin cfg0.N) (i : S8192x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v4).slice (win0_3.rect t)).set ↔ _
  rw [View.set_slice_whole, Rect.mem_set_unit]
  exact Iff.rfl

/-- Every index of the result lies in the block of the point its row selects. -/
theorem covered (i : S8192x2048.Idx) :
    ∃ t : Fin cfg0.N, (cfg0.win 3).flush t = true ∧ i ∈ ((cfg0.win 3).blk t).view.set := by
  have hi0 : (i 0).val < 8192 := (i 0).isLt
  have hi1 : (i 1).val < 2048 := (i 1).isLt
  have hN : cfg0.N = 16 := N_0
  obtain ⟨t, ht⟩ : ∃ t : Fin cfg0.N, t.val = (i 0).val / 512 := ⟨⟨(i 0).val / 512, by rw [hN]; omega⟩, rfl⟩
  obtain ⟨-, -, -, -, -, -, e0, e1⟩ := block_indices t
  refine ⟨t, flush0_3 t, ?_⟩
  rw [mem_block]
  intro a
  match a with
  | ⟨0, _⟩ =>
    show win0_3.index t (0 : Fin 2) * 512 ≤ (i 0).val ∧ (i 0).val < win0_3.index t (0 : Fin 2) * 512 + 512
    rw [e0, ht]; omega
  | ⟨1, _⟩ =>
    show win0_3.index t (1 : Fin 2) * 2048 ≤ (i 1).val ∧ (i 1).val < win0_3.index t (1 : Fin 2) * 2048 + 2048
    rw [e1]; omega

/-- The result array after the run is the layer of the two arguments. -/
theorem final (c : Dev nD) : (dats m 0 c).arrAt 3 cfg0.N = Cert.Rbf.rbf (points m c) (landmarks m c) :=
  (dats m 0 c).arrAt_eq_of_cover 3 (Cert.Rbf.rbf (points m c) (landmarks m c)) (fun t _ => flushed_eq m c t) covered

/-- The kernel's run: it terminates with the result at the layer of the arguments and the arguments unchanged. -/
theorem run : θ_run defs (onTc (τ := τ) (main (F := Ideal))) ⟨m, fun _ => 0, ρ⟩ fun r => ∀ c : Dev nD,
      r.2.mem ((c : Thread nD τ).loc main_v4) = Cert.Rbf.rbf (points m c) (landmarks m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelRbf

end
-- ==== Proof.lean ====
/-
  The radial-basis-function layer: a Pallas kernel against its jnp reference, equal on the extended reals.

  For 8192 points x_b and 2048 landmarks l_j in dimension 256 both programs return the 8192 × 2048 array

      out[b, j] = exp( −(1/256) · max( |x_b|² + |l_j|² − 2 · ⟨x_b, l_j⟩ , 0 ) ).

  The kernel has the host transpose the landmarks and sum the squares of each landmark once, then runs 16 grid
  points; each takes 512 points, forms their squared norms by a lane sum, the inner products by one matrix product
  against the transposed landmarks, and stores its 512 rows of the result. The reference forms the two vectors of
  squared norms by host reductions, the inner products by one contraction of the two arrays' second axes, and
  applies the same entrywise operations to the whole 8192 × 2048 array.

  On the extended reals every one of these sums is the same finite sum over the 256 coordinates, in whatever order
  or grouping it is taken, a reduction's initial value 0 adds nothing, and the scale −1/256 is one number whether
  spelt as its own pattern or as the negation of the pattern of 1/256. Nothing in the comparison moves a factor
  across a sum or cancels anything, so the inputs' finiteness is not used: the two results are the same expression
  in the same entries of the two arguments (`Cert.Rbf.rbf`), and that is the whole argument. The kernel's side is
  `Cert.KernelRbf.run`, the reference's `Cert.RefRbf.stage_eq` over its generated run. The idealization rewrote
  nothing, so there is nothing to preserve; the three frames are the generated runs.
-/
import proofs.«140995_j58128087384571_2_alg».proof.Defs
import proofs.«140995_j58128087384571_2_alg».proof.Proof.Gen.Kernel
import proofs.«140995_j58128087384571_2_alg».proof.Proof.Gen.Kernel.Skeleton
import proofs.«140995_j58128087384571_2_alg».proof.Proof.Gen.Kernel.Launch
import proofs.«140995_j58128087384571_2_alg».proof.Proof.Gen.Kernel.Points
import proofs.«140995_j58128087384571_2_alg».proof.Proof.Gen.Kernel.Frame
import proofs.«140995_j58128087384571_2_alg».proof.Proof.Gen.KernelIdeal
import proofs.«140995_j58128087384571_2_alg».proof.Proof.Gen.KernelIdeal.Skeleton
import proofs.«140995_j58128087384571_2_alg».proof.Proof.Gen.KernelIdeal.Launch
import proofs.«140995_j58128087384571_2_alg».proof.Proof.Gen.KernelIdeal.Points
import proofs.«140995_j58128087384571_2_alg».proof.Proof.Gen.KernelIdeal.Frame
import proofs.«140995_j58128087384571_2_alg».proof.Proof.Gen.ReferenceIdeal
import proofs.«140995_j58128087384571_2_alg».proof.Proof.Gen.Pre_finite_inputs
import proofs.«140995_j58128087384571_2_alg».proof.Proof.Gen.KernelIdeal.Value
import proofs.«140995_j58128087384571_2_alg».proof.Proof.Gen.ReferenceIdeal.Run
import proofs.«140995_j58128087384571_2_alg».proof.Proof.Gen.ReferenceIdeal.Read
import proofs.«140995_j58128087384571_2_alg».proof.Proof.RbfSpec
import proofs.«140995_j58128087384571_2_alg».proof.Proof.RefIsRbf
import proofs.«140995_j58128087384571_2_alg».proof.Proof.KernelIsRbf
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the points and the landmarks, both programs end with the layer of those two arrays
    in their result: the kernel by its blocks covering the array, the reference by reading its last stage entry
    by entry. -/
theorem algebraic : Cert.algebraic_KernelIdeal_ReferenceIdeal := by
  intro m ρ m' ρ' _ hagree
  refine ⟨fun c => Cert.Rbf.rbf (Cert.KernelRbf.points m c) (Cert.KernelRbf.landmarks m c), Cert.KernelRbf.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.RefRbf.stage_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
